-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S64x64 : Shape := ⟨2, ![64, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S4x16x4096x64 .f32) (main_arg1 : FVec F S4x16x4096x64 .f32) (main_arg2 : FVec F S4x16x4096x64 .f32) (main_arg3 : FVec F S64x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S4x16x4096x64 : Shape := ⟨4, ![4, 16, 4096, 64]⟩
abbrev S64x64 : Shape := ⟨2, ![64, 64]⟩
abbrev S1x1x4096x64 : Shape := ⟨4, ![1, 1, 4096, 64]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S64x1 : Shape := ⟨2, ![64, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S64x64, .f32⟩
  | .hbm, ⟨4, _⟩ => ⟨S4x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S64x64, .f32⟩
  | .local _ .vmem, ⟨7, _⟩ => ⟨S1x1x4096x64, .f32⟩
  | .local _ .vmem, ⟨8, _⟩ => ⟨S1x1x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S64x64_S64x64_0_0 : ∀ a, (![0, 0] : Fin 2 → Nat) a + S64x64.size a ≤ S64x64.size a
  h_S64x64 : 0 < S64x64.numel
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  shapeCasts_S64_S64x1 : S64.ShapeCasts S64x1
  bitsLt_bf16_f32 : FTy.bits .bf16 < FTy.bits .f32
  shapeCasts_S4096x64_S1x1x4096x64 : S4096x64.ShapeCasts S1x1x4096x64
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  dot_S4096x64_S4096x64_S64x64_0_0_1_1_n_n_wf : DotDims.WF S4096x64 S4096x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S4x16x4096x64.size a
  hwx0_0 : ∀ i : grid0.Coords, EltTy.bits .f32 = 32 ∨ (Rect.block (s := S4x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x16x4096x64.size a
  hwx0_1 : ∀ i : grid0.Coords, EltTy.bits .f32 = 32 ∨ (Rect.block (s := S4x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S4x16x4096x64.size a
  hwx0_2 : ∀ i : grid0.Coords, EltTy.bits .f32 = 32 ∨ (Rect.block (s := S4x16x4096x64) S1x1x4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096x64.size a ≤ S4x16x4096x64.size a
  hwx0_4 : ∀ i : grid0.Coords, EltTy.bits .f32 = 32 ∨ (Rect.block (s := S4x16x4096x64) S1x1x4096x64.size (cc0_transform_4 i) (hinb0_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S64x64 : Shape := ⟨2, ![64, 64]⟩
abbrev S_ : Shape := ⟨0, ![]⟩
abbrev S4x16x4096 : Shape := ⟨3, ![4, 16, 4096]⟩
abbrev S4x16x4096x1 : Shape := ⟨4, ![4, 16, 4096, 1]⟩
abbrev S4x16x4096x65 : Shape := ⟨4, ![4, 16, 4096, 65]⟩
abbrev S4x16x64x65 : Shape := ⟨4, ![4, 16, 64, 65]⟩

abbrev nBuf : Space → Nat
  | .hbm => 48
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S64x64, .f32⟩
  | .hbm, ⟨4, _⟩ => ⟨S4x16x4096x64, .f32⟩
  | .hbm, ⟨5, _⟩ => ⟨S_, .f32⟩
  | .hbm, ⟨6, _⟩ => ⟨S4x16x4096, .f32⟩
  | .hbm, ⟨7, _⟩ => ⟨S_, .f32⟩
  | .hbm, ⟨8, _⟩ => ⟨S4x16x4096, .f32⟩
  | .hbm, ⟨9, _⟩ => ⟨S4x16x4096, .f32⟩
  | .hbm, ⟨10, _⟩ => ⟨S4x16x4096, .f32⟩
  | .hbm, ⟨11, _⟩ => ⟨S4x16x4096x64, .f32⟩
  | .hbm, ⟨12, _⟩ => ⟨S4x16x4096x64, .f32⟩
  | .hbm, ⟨13, _⟩ => ⟨S4x16x4096x1, .f32⟩
  | .hbm, ⟨14, _⟩ => ⟨S_, .f32⟩
  | .hbm, ⟨15, _⟩ => ⟨S4x16x4096x1, .f32⟩
  | .hbm, ⟨16, _⟩ => ⟨S4x16x4096x1, .f32⟩
  | .hbm, ⟨17, _⟩ => ⟨S4x16x4096x64, .f32⟩
  | .hbm, ⟨18, _⟩ => ⟨S4x16x4096x64, .f32⟩
  | .hbm, ⟨19, _⟩ => ⟨S4x16x4096x64, .f32⟩
  | .hbm, ⟨20, _⟩ => ⟨S_, .f32⟩
  | .hbm, ⟨21, _⟩ => ⟨S4x16x4096, .f32⟩
  | .hbm, ⟨22, _⟩ => ⟨S_, .f32⟩
  | .hbm, ⟨23, _⟩ => ⟨S4x16x4096, .f32⟩
  | .hbm, ⟨24, _⟩ => ⟨S4x16x4096, .f32⟩
  | .hbm, ⟨25, _⟩ => ⟨S4x16x4096, .f32⟩
  | .hbm, ⟨26, _⟩ => ⟨S4x16x4096x64, .f32⟩
  | .hbm, ⟨27, _⟩ => ⟨S4x16x4096x64, .f32⟩
  | .hbm, ⟨28, _⟩ => ⟨S4x16x4096x1, .f32⟩
  | .hbm, ⟨29, _⟩ => ⟨S_, .f32⟩
  | .hbm, ⟨30, _⟩ => ⟨S4x16x4096x1, .f32⟩
  | .hbm, ⟨31, _⟩ => ⟨S4x16x4096x1, .f32⟩
  | .hbm, ⟨32, _⟩ => ⟨S4x16x4096x64, .f32⟩
  | .hbm, ⟨33, _⟩ => ⟨S4x16x4096x64, .f32⟩
  | .hbm, ⟨34, _⟩ => ⟨S_, .f32⟩
  | .hbm, ⟨35, _⟩ => ⟨S4x16x4096x1, .f32⟩
  | .hbm, ⟨36, _⟩ => ⟨S4x16x4096x65, .f32⟩
  | .hbm, ⟨37, _⟩ => ⟨S4x16x64x65, .f32⟩
  | .hbm, ⟨38, _⟩ => ⟨S4x16x4096x65, .f32⟩
  | .hbm, ⟨39, _⟩ => ⟨S4x16x4096x64, .f32⟩
  | .hbm, ⟨40, _⟩ => ⟨S4x16x4096x1, .f32⟩
  | .hbm, ⟨41, _⟩ => ⟨S4x16x4096, .f32⟩
  | .hbm, ⟨42, _⟩ => ⟨S_, .f32⟩
  | .hbm, ⟨43, _⟩ => ⟨S4x16x4096, .f32⟩
  | .hbm, ⟨44, _⟩ => ⟨S4x16x4096, .f32⟩
  | .hbm, ⟨45, _⟩ => ⟨S4x16x4096x1, .f32⟩
  | .hbm, ⟨46, _⟩ => ⟨S4x16x4096x64, .f32⟩
  | .hbm, ⟨47, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S4x16x4096x64_S4x16x4096_d3 : S4x16x4096x64.ReducesTo [3] S4x16x4096
  h_S_ : 0 < S_.numel
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  concatenates_S4x16x4096x64_S4x16x4096x1_S4x16x4096x65_d3 : Shape.Concatenates [S4x16x4096x64, S4x16x4096x1] S4x16x4096x65 3
  slices_S4x16x4096x65_S4x16x4096x64_0_0_0_0 : S4x16x4096x65.Slices ![0, 0, 0, 0] S4x16x4096x64
  slices_S4x16x4096x65_S4x16x4096x1_0_0_0_64 : S4x16x4096x65.Slices ![0, 0, 0, 64] S4x16x4096x1
  shapeCasts_S4x16x4096x1_S4x16x4096 : S4x16x4096x1.ShapeCasts S4x16x4096
  dot_S4x16x4096x64_S64x64_S4x16x4096x64_3_0_012_1_n_n_wf : DotDims.WF S4x16x4096x64 S64x64 S4x16x4096x64 [3] [0] [0, 1, 2] [1] [] []
  dot_S4x16x4096x64_S4x16x4096x65_S4x16x64x65_2_2_3_3_01_01_wf : DotDims.WF S4x16x4096x64 S4x16x4096x65 S4x16x64x65 [2] [2] [3] [3] [0, 1] [0, 1]
  dot_S4x16x4096x64_S4x16x64x65_S4x16x4096x65_3_2_2_3_01_01_wf : DotDims.WF S4x16x4096x64 S4x16x64x65 S4x16x4096x65 [3] [2] [2] [3] [0, 1] [0, 1]

variable [Facts₀]

def dot_S4x16x4096x64_S64x64_S4x16x4096x64_3_0_012_1_n_n : DotDims S4x16x4096x64 S64x64 S4x16x4096x64 where
  lhsContracting := [3]
  rhsContracting := [0]
  lhsNonContracting := [0, 1, 2]
  rhsNonContracting := [1]
  lhsBatch := []
  rhsBatch := []
  wf := dot_S4x16x4096x64_S64x64_S4x16x4096x64_3_0_012_1_n_n_wf
def dot_S4x16x4096x64_S4x16x4096x65_S4x16x64x65_2_2_3_3_01_01 : DotDims S4x16x4096x64 S4x16x4096x65 S4x16x64x65 where
  lhsContracting := [2]
  rhsContracting := [2]
  lhsNonContracting := [3]
  rhsNonContracting := [3]
  lhsBatch := [0, 1]
  rhsBatch := [0, 1]
  wf := dot_S4x16x4096x64_S4x16x4096x65_S4x16x64x65_2_2_3_3_01_01_wf
def dot_S4x16x4096x64_S4x16x64x65_S4x16x4096x65_3_2_2_3_01_01 : DotDims S4x16x4096x64 S4x16x64x65 S4x16x4096x65 where
  lhsContracting := [3]
  rhsContracting := [2]
  lhsNonContracting := [2]
  rhsNonContracting := [3]
  lhsBatch := [0, 1]
  rhsBatch := [0, 1]
  wf := dot_S4x16x4096x64_S4x16x64x65_S4x16x4096x65_3_2_2_3_01_01_wf

class Facts : Prop extends Facts₀ where

variable [Facts]
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.Spec.lean ====
/-
  Linear attention with positive random features, one head at a time.

  A head has queries q, keys k and values v, each 4096 rows of 64 numbers, and a 64 × 64 projection w shared by all
  heads. A row x_s is sent to 64 positive features
      feat x w s m = (1/8 · exp(−1/2 · Σ_d x_{s,d}²)) · exp(Σ_d x_{s,d} · w_{d,m}),
  and the head's output at row s and column e is the quotient of
      num s e = Σ_m feat q w s m · (Σ_{s'} feat k w s' m · v_{s',e})      by
      den s   = Σ_m feat q w s m · (Σ_{s'} feat k w s' m).
  The whole result `G` is this head function applied, at the index (b, h, s, e), to the (b, h) slices of the three
  4 × 16 × 4096 × 64 arrays.

  When the entries of q, k and w are real numbers every feature is a positive real (an exponential of a real is
  positive, 1/8 is positive, and positive reals are closed under products and nonempty sums), so `den` is a nonzero
  real; only then does a product with the reciprocal 1/den agree with the quotient by den on the extended reals.
-/
import Mathlib
import Idealize.ShloMosaic.PureOps.Ideal
import Idealize.ShloMosaic.Lib.ValueIdx
import proofs.«110862_j35888746726059_1_alg».proof.Proof.LibRealArith

noncomputable section

namespace Cert.Attn

open Idealize.ShloMosaic Idealize.ShloMosaic.ValueIdx Cert.LibRealArith

/-- The shape of the three big arrays and of the result. -/
abbrev A4 : Shape := ⟨4, ![4, 16, 4096, 64]⟩
/-- The shape of the projection. -/
abbrev W2 : Shape := ⟨2, ![64, 64]⟩

/-- The binary32 pattern of 1/8. -/
abbrev cEighth : EReal := Ideal.ofBits .f32 0x3E000000#32
/-- The binary32 pattern of −1/2. -/
abbrev cNegHalf : EReal := Ideal.ofBits .f32 0xBF000000#32

/-- The positive feature m of row s. -/
def feat (x : Fin 4096 → Fin 64 → EReal) (w : Fin 64 → Fin 64 → EReal) (s : Fin 4096) (m : Fin 64) : EReal :=
  (cEighth * Ideal.exp (cNegHalf * ∑ d : Fin 64, x s d * x s d)) * Ideal.exp (∑ d : Fin 64, x s d * w d m)

/-- The normaliser of row s. -/
def den (q k : Fin 4096 → Fin 64 → EReal) (w : Fin 64 → Fin 64 → EReal) (s : Fin 4096) : EReal :=
  ∑ m : Fin 64, feat q w s m * ∑ s' : Fin 4096, feat k w s' m

/-- The unnormalised output at row s, column e. -/
def num (q k v : Fin 4096 → Fin 64 → EReal) (w : Fin 64 → Fin 64 → EReal) (s : Fin 4096) (e : Fin 64) : EReal :=
  ∑ m : Fin 64, feat q w s m * ∑ s' : Fin 4096, feat k w s' m * v s' e

/-- One head's output. -/
def head (q k v : Fin 4096 → Fin 64 → EReal) (w : Fin 64 → Fin 64 → EReal) (s : Fin 4096) (e : Fin 64) : EReal :=
  Ideal.div (num q k v w s e) (den q k w s)

/-- The (b, h) slice of a big array, as a 4096 × 64 matrix. -/
def slice (X : A4.Idx → EReal) (b : Fin 4) (h : Fin 16) : Fin 4096 → Fin 64 → EReal := fun s d => X (ix4 b h s d)

/-- The projection as a matrix. -/
def mat (W : W2.Idx → EReal) : Fin 64 → Fin 64 → EReal := fun d m => W (ix2 d m)

/-- The whole result, index by index. -/
def G (Q K V : A4.Idx → EReal) (W : W2.Idx → EReal) : A4.Idx → EReal := fun i =>
  head (slice Q (i 0) (i 1)) (slice K (i 0) (i 1)) (slice V (i 0) (i 1)) (mat W) (i 2) (i 3)

theorem G_ix4 (Q K V : A4.Idx → EReal) (W : W2.Idx → EReal) (b : Fin 4) (h : Fin 16) (s : Fin 4096) (e : Fin 64) :
    G Q K V W (ix4 b h s e) = head (slice Q b h) (slice K b h) (slice V b h) (mat W) s e := rfl

/-! ## Positivity -/

/-- An extended real that is a positive real number. -/
def IsPos (x : EReal) : Prop := ∃ r : ℝ, 0 < r ∧ x = (r : EReal)

theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

theorem IsPos.sum {ι : Type*} [Fintype ι] [Nonempty ι] {f : ι → EReal} (hf : ∀ i, IsPos (f i)) : IsPos (∑ i, f i) := by
  choose r hr he using hf
  refine ⟨∑ i, r i, Finset.sum_pos (fun i _ => hr i) Finset.univ_nonempty, ?_⟩
  rw [← sum_coe]
  exact Finset.sum_congr rfl fun i _ => he i

theorem IsPos.ne_zero {x : EReal} (hx : IsPos x) : ∃ r : ℝ, r ≠ 0 ∧ x = (r : EReal) := by
  obtain ⟨a, ha, rfl⟩ := hx; exact ⟨a, ha.ne', rfl⟩

/-- The exponential of a real number is a positive real. -/
theorem exp_pos {x : EReal} (hx : IsReal x) : IsPos (Ideal.exp x) := by
  obtain ⟨a, rfl⟩ := hx
  exact ⟨Real.exp a, Real.exp_pos a, rfl⟩

/-- The pattern 0x3E000000 is 1/8. -/
theorem cEighth_eq : cEighth = ((1 / 8 : ℝ) : EReal) := by
  simp [cEighth, Ideal.ofBits, Ideal.ieee, -EReal.coe_mul] <;> norm_num

/-- The pattern 0xBF000000 is −1/2. -/
theorem cNegHalf_eq : cNegHalf = ((-(1 / 2) : ℝ) : EReal) := by
  simp [cNegHalf, Ideal.ofBits, Ideal.ieee, -EReal.coe_mul] <;> norm_num

/-- A feature of a real row under a real projection is a positive real. -/
theorem feat_pos {x : Fin 4096 → Fin 64 → EReal} {w : Fin 64 → Fin 64 → EReal} (hx : ∀ s d, IsReal (x s d))
    (hw : ∀ d m, IsReal (w d m)) (s : Fin 4096) (m : Fin 64) : IsPos (feat x w s m) := by
  unfold feat
  refine IsPos.mul (IsPos.mul ⟨1 / 8, by norm_num, cEighth_eq⟩ (exp_pos ?_)) (exp_pos ?_)
  · rw [cNegHalf_eq]
    exact (IsReal.coe _).mul (IsReal.sum _ fun d _ => (hx s d).mul (hx s d))
  · exact IsReal.sum _ fun d _ => (hx s d).mul (hw d m)

/-- The normaliser of real queries and keys under a real projection is a nonzero real. -/
theorem den_ne_zero {q k : Fin 4096 → Fin 64 → EReal} {w : Fin 64 → Fin 64 → EReal} (hq : ∀ s d, IsReal (q s d))
    (hk : ∀ s d, IsReal (k s d)) (hw : ∀ d m, IsReal (w d m)) (s : Fin 4096) :
    ∃ r : ℝ, r ≠ 0 ∧ den q k w s = (r : EReal) := by
  unfold den
  exact (IsPos.sum fun m => (feat_pos hq hw s m).mul (IsPos.sum fun s' => feat_pos hk hw s' m)).ne_zero

/-- With a nonzero real normaliser, the product with its reciprocal is the quotient. -/
theorem num_mul_recip {q k v : Fin 4096 → Fin 64 → EReal} {w : Fin 64 → Fin 64 → EReal} (hq : ∀ s d, IsReal (q s d))
    (hk : ∀ s d, IsReal (k s d)) (hw : ∀ d m, IsReal (w d m)) (s : Fin 4096) (e : Fin 64) :
    num q k v w s e * Ideal.div 1 (den q k w s) = head q k v w s e := by
  obtain ⟨r, hr, hd⟩ := den_ne_zero hq hk hw s
  unfold head
  rw [hd]
  exact mul_one_div _ hr

end Cert.Attn

end
-- ==== Proof.KernelOps.lean ====
/-
  The vector operations of one head's computation, each read at an index given by coordinates.

  A 1 × 1 × 4096 × 64 block seen as a 4096 × 64 matrix (and back) keeps row-major order, so entry (s, d) of the matrix
  is entry (0, 0, s, d) of the block. A sum along the columns of a 4096 × 64 matrix, read at row s, is the sum over d
  of the entries (s, d); a sum along its rows, read at column m, is the sum over s of the entries (s, m). A vector
  made a one-column matrix reads, at (i, 0), entry i; a one-column matrix repeated along 64 columns reads, at (s, m),
  its entry (s, 0). A matrix product into a zero accumulator, read at an entry, is the sum over the contracted axis of
  the products of the two operands' entries: rows of the left against columns of the right for the usual product,
  columns against columns when both operands are contracted along their rows.
-/
import proofs.«110862_j35888746726059_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelOps

open Idealize.ShloMosaic Idealize.ShloMosaic.ValueIdx Cert.KernelIdeal Cert.KernelIdeal.Gen

variable {α : Type}

/-- Entry (s, d) of a block seen as a matrix is entry (0, 0, s, d) of the block. -/
theorem block_as_matrix_apply (x : S1x1x4096x64.Idx → α) (h : S1x1x4096x64.ShapeCasts S4096x64) (s : Fin 4096) (d : Fin 64) :
    shapeCast S4096x64 x h (ix2 s d) = x (ix4 (0 : Fin 1) (0 : Fin 1) s d) :=
  shapeCast_apply x h _ _ (by
    rw [Shape.rowMajor_val_four, Shape.rowMajor_val_two]
    show (((0 : ℕ) * 1 + 0) * 4096 + s.val) * 64 + d.val = s.val * 64 + d.val
    omega)

/-- Entry (0, 0, s, d) of a matrix seen as a block is entry (s, d) of the matrix. -/
theorem matrix_as_block_apply (x : S4096x64.Idx → α) (h : S4096x64.ShapeCasts S1x1x4096x64) (s : Fin 4096) (d : Fin 64) :
    shapeCast S1x1x4096x64 x h (ix4 (0 : Fin 1) (0 : Fin 1) s d) = x (ix2 s d) :=
  shapeCast_apply x h _ _ (by
    rw [Shape.rowMajor_val_four, Shape.rowMajor_val_two]
    show s.val * 64 + d.val = (((0 : ℕ) * 1 + 0) * 4096 + s.val) * 64 + d.val
    omega)

/-- A vector of 4096 entries made a one-column matrix. -/
theorem column_of_vector_apply (x : S4096.Idx → α) (h : S4096.ShapeCasts S4096x1) (s : Fin 4096) (u : Fin 1) :
    shapeCast S4096x1 x h (ix2 s u) = x (ix1 s) :=
  shapeCast_apply x h _ _ (by
    have hu : u.val = 0 := by omega
    rw [Shape.rowMajor_val_two, Shape.rowMajor_val_one]
    show s.val = s.val * 1 + u.val
    omega)

/-- A vector of 64 entries made a one-column matrix. -/
theorem column_of_vector64_apply (x : S64.Idx → α) (h : S64.ShapeCasts S64x1) (m : Fin 64) (u : Fin 1) :
    shapeCast S64x1 x h (ix2 m u) = x (ix1 m) :=
  shapeCast_apply x h _ _ (by
    have hu : u.val = 0 := by omega
    rw [Shape.rowMajor_val_two, Shape.rowMajor_val_one]
    show m.val = m.val * 1 + u.val
    omega)

/-- A one-column matrix repeated along 64 columns. -/
theorem repeat_column_apply (x : S4096x1.Idx → α) (h : S4096x1.Broadcasts S4096x64) (s : Fin 4096) (m : Fin 64) :
    broadcastTo S4096x64 x h (ix2 s m) = x (ix2 s (0 : Fin 1)) :=
  broadcastTo_apply x h _ _ (fun a => by
    match a with
    | ⟨0, _⟩ => rfl
    | ⟨1, _⟩ => rfl)

/-- The sum along the columns, read at row s. -/
theorem sum_columns_apply (src : FVec Ideal S4096x64 .f32) (h : S4096x64.Reduces [1] S4096) (hφ : FKind.Formats .f32)
    (hacc : (0x00000000#32 : BitVec 32) = FKind.add.neutral .f32 hφ) (s : Fin 4096) :
    multiReduction .add [1] S4096 src 0x00000000#32 h hφ hacc (ix1 s) = ∑ d : Fin 64, src (ix2 s d) :=
  (Ideal.multiReduction_add_single src 0x00000000#32 h hφ hacc (ix1 s)).trans
    (Finset.sum_congr rfl fun d _ => congrArg src (funext fun a => Fin.ext (by
      match a with
      | ⟨0, _⟩ => rfl
      | ⟨1, _⟩ => rfl)))

/-- The sum along the rows, read at column m. -/
theorem sum_rows_apply (src : FVec Ideal S4096x64 .f32) (h : S4096x64.Reduces [0] S64) (hφ : FKind.Formats .f32)
    (hacc : (0x00000000#32 : BitVec 32) = FKind.add.neutral .f32 hφ) (m : Fin 64) :
    multiReduction .add [0] S64 src 0x00000000#32 h hφ hacc (ix1 m) = ∑ s : Fin 4096, src (ix2 s m) :=
  (Ideal.multiReduction_add_single src 0x00000000#32 h hφ hacc (ix1 m)).trans
    (Finset.sum_congr rfl fun s _ => congrArg src (funext fun a => Fin.ext (by
      match a with
      | ⟨0, _⟩ => rfl
      | ⟨1, _⟩ => rfl)))

/-- The elementwise exponential at an index. -/
theorem exp_apply {s : Shape} {φ : FTy} (a : FVec Ideal s φ) (i : s.Idx) : exp a i = Ideal.exp (a i) := rfl

end Cert.KernelOps

end
-- ==== Proof.KernelMatmul.lean ====
/-
  The three matrix products of one head's computation, each into a zero accumulator, read at an entry.

  With one contracted axis a product's entry is a sum over that axis's coordinate. For the usual product of a
  4096 × 64 matrix by a 64 × 64 (or 64 × 1) matrix, entry (s, m) is the sum over d of left (s, d) times right (d, m).
  For the product that contracts both 4096 × 64 operands along their rows, entry (m, e) is the sum over s of
  left (s, m) times right (s, e).
-/
import proofs.«110862_j35888746726059_1_alg».proof.Proof.Gen.KernelIdeal
import Idealize.ShloMosaic.Lib.ValueIdx
import Idealize.ShloMosaic.PureOps.Ideal.Laws

noncomputable section

namespace Cert.KernelMatmul

open Idealize.ShloMosaic Idealize.ShloMosaic.ValueIdx Cert.KernelIdeal Cert.KernelIdeal.Gen

theorem rows_by_square_apply_l0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem rows_by_square_apply_l1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem rows_by_square_apply_r1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl
theorem rows_by_square_apply_r0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q

/-- Rows of a 4096 × 64 matrix against columns of a 64 × 64 matrix. -/
theorem rows_by_square_apply {φ₁ φ₂ : FTy} (l : FVec Ideal S4096x64 φ₁) (r : FVec Ideal S64x64 φ₂) (s : Fin 4096) (m : Fin 64) :
    matmul dot_S4096x64_S64x64_S4096x64_1_0_0_1_n_n none l r (constant S4096x64 .f32 0x00000000#32) (ix2 s m)
      = ∑ d : Fin 64, l (ix2 s d) * r (ix2 d m) := by
  simp only [matmul]
  rw [Ideal.matmul_constant_zero_apply, ← Equiv.sum_comp (contrEquiv1 dot_S4096x64_S64x64_S4096x64_1_0_0_1_n_n 64 rfl rfl).symm]
  refine Finset.sum_congr rfl fun d _ => ?_
  have hk := contrEquiv1_symm_val dot_S4096x64_S64x64_S4096x64_1_0_0_1_n_n 64 rfl rfl d
  have el : dot_S4096x64_S64x64_S4096x64_1_0_0_1_n_n.lhsIdx (ix2 s m) ((contrEquiv1 dot_S4096x64_S64x64_S4096x64_1_0_0_1_n_n 64 rfl rfl).symm d) = ix2 s d := funext fun a => Fin.ext (by
    match a with
    | ⟨0, _⟩ => exact rows_by_square_apply_l0 _ _
    | ⟨1, _⟩ => exact (rows_by_square_apply_l1 _ _).trans hk)
  have er : dot_S4096x64_S64x64_S4096x64_1_0_0_1_n_n.rhsIdx (ix2 s m) ((contrEquiv1 dot_S4096x64_S64x64_S4096x64_1_0_0_1_n_n 64 rfl rfl).symm d) = ix2 d m := funext fun a => Fin.ext (by
    match a with
    | ⟨1, _⟩ => exact rows_by_square_apply_r1 _ _
    | ⟨0, _⟩ => exact (rows_by_square_apply_r0 _ _).trans hk)
  rw [el, er]

theorem rows_by_column_apply_l0 (i : S4096x1.Idx) (q : dot_S4096x64_S64x1_S4096x1_1_0_0_1_n_n.contr.Idx) : (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem rows_by_column_apply_l1 (i : S4096x1.Idx) (q : dot_S4096x64_S64x1_S4096x1_1_0_0_1_n_n.contr.Idx) : (dot_S4096x64_S64x1_S4096x1_1_0_0_1_n_n.lhsIdx i q 1).val = (q ⟨0, by decide⟩).val :=
  dot_S4096x64_S64x1_S4096x1_1_0_0_1_n_n.lhsIdx_val_of_single rfl i q
theorem rows_by_column_apply_r1 (i : S4096x1.Idx) (q : dot_S4096x64_S64x1_S4096x1_1_0_0_1_n_n.contr.Idx) : (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl
theorem rows_by_column_apply_r0 (i : S4096x1.Idx) (q : dot_S4096x64_S64x1_S4096x1_1_0_0_1_n_n.contr.Idx) : (dot_S4096x64_S64x1_S4096x1_1_0_0_1_n_n.rhsIdx i q 0).val = (q ⟨0, by decide⟩).val :=
  dot_S4096x64_S64x1_S4096x1_1_0_0_1_n_n.rhsIdx_val_of_single rfl i q

/-- Rows of a 4096 × 64 matrix against the one column of a 64 × 1 matrix. -/
theorem rows_by_column_apply {φ₁ φ₂ : FTy} (l : FVec Ideal S4096x64 φ₁) (r : FVec Ideal S64x1 φ₂) (s : Fin 4096) (u : Fin 1) :
    matmul dot_S4096x64_S64x1_S4096x1_1_0_0_1_n_n none l r (constant S4096x1 .f32 0x00000000#32) (ix2 s u)
      = ∑ d : Fin 64, l (ix2 s d) * r (ix2 d u) := by
  simp only [matmul]
  rw [Ideal.matmul_constant_zero_apply, ← Equiv.sum_comp (contrEquiv1 dot_S4096x64_S64x1_S4096x1_1_0_0_1_n_n 64 rfl rfl).symm]
  refine Finset.sum_congr rfl fun d _ => ?_
  have hk := contrEquiv1_symm_val dot_S4096x64_S64x1_S4096x1_1_0_0_1_n_n 64 rfl rfl d
  have el : dot_S4096x64_S64x1_S4096x1_1_0_0_1_n_n.lhsIdx (ix2 s u) ((contrEquiv1 dot_S4096x64_S64x1_S4096x1_1_0_0_1_n_n 64 rfl rfl).symm d) = ix2 s d := funext fun a => Fin.ext (by
    match a with
    | ⟨0, _⟩ => exact rows_by_column_apply_l0 _ _
    | ⟨1, _⟩ => exact (rows_by_column_apply_l1 _ _).trans hk)
  have er : dot_S4096x64_S64x1_S4096x1_1_0_0_1_n_n.rhsIdx (ix2 s u) ((contrEquiv1 dot_S4096x64_S64x1_S4096x1_1_0_0_1_n_n 64 rfl rfl).symm d) = ix2 d u := funext fun a => Fin.ext (by
    match a with
    | ⟨1, _⟩ => exact rows_by_column_apply_r1 _ _
    | ⟨0, _⟩ => exact (rows_by_column_apply_r0 _ _).trans hk)
  rw [el, er]

theorem columns_by_columns_apply_l1 (i : S64x64.Idx) (q : dot_S4096x64_S4096x64_S64x64_0_0_1_1_n_n.contr.Idx) : (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem columns_by_columns_apply_l0 (i : S64x64.Idx) (q : dot_S4096x64_S4096x64_S64x64_0_0_1_1_n_n.contr.Idx) : (dot_S4096x64_S4096x64_S64x64_0_0_1_1_n_n.lhsIdx i q 0).val = (q ⟨0, by decide⟩).val :=
  dot_S4096x64_S4096x64_S64x64_0_0_1_1_n_n.lhsIdx_val_of_single rfl i q
theorem columns_by_columns_apply_r1 (i : S64x64.Idx) (q : dot_S4096x64_S4096x64_S64x64_0_0_1_1_n_n.contr.Idx) : (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl
theorem columns_by_columns_apply_r0 (i : S64x64.Idx) (q : dot_S4096x64_S4096x64_S64x64_0_0_1_1_n_n.contr.Idx) : (dot_S4096x64_S4096x64_S64x64_0_0_1_1_n_n.rhsIdx i q 0).val = (q ⟨0, by decide⟩).val :=
  dot_S4096x64_S4096x64_S64x64_0_0_1_1_n_n.rhsIdx_val_of_single rfl i q

/-- Columns of one 4096 × 64 matrix against columns of another: both contracted along their rows. -/
theorem columns_by_columns_apply {φ₁ φ₂ : FTy} (l : FVec Ideal S4096x64 φ₁) (r : FVec Ideal S4096x64 φ₂) (m : Fin 64) (e : Fin 64) :
    matmul dot_S4096x64_S4096x64_S64x64_0_0_1_1_n_n none l r (constant S64x64 .f32 0x00000000#32) (ix2 m e)
      = ∑ s : Fin 4096, l (ix2 s m) * r (ix2 s e) := by
  simp only [matmul]
  rw [Ideal.matmul_constant_zero_apply, ← Equiv.sum_comp (contrEquiv1 dot_S4096x64_S4096x64_S64x64_0_0_1_1_n_n 4096 rfl rfl).symm]
  refine Finset.sum_congr rfl fun s _ => ?_
  have hk := contrEquiv1_symm_val dot_S4096x64_S4096x64_S64x64_0_0_1_1_n_n 4096 rfl rfl s
  have el : dot_S4096x64_S4096x64_S64x64_0_0_1_1_n_n.lhsIdx (ix2 m e) ((contrEquiv1 dot_S4096x64_S4096x64_S64x64_0_0_1_1_n_n 4096 rfl rfl).symm s) = ix2 s m := funext fun a => Fin.ext (by
    match a with
    | ⟨1, _⟩ => exact columns_by_columns_apply_l1 _ _
    | ⟨0, _⟩ => exact (columns_by_columns_apply_l0 _ _).trans hk)
  have er : dot_S4096x64_S4096x64_S64x64_0_0_1_1_n_n.rhsIdx (ix2 m e) ((contrEquiv1 dot_S4096x64_S4096x64_S64x64_0_0_1_1_n_n 4096 rfl rfl).symm s) = ix2 s e := funext fun a => Fin.ext (by
    match a with
    | ⟨1, _⟩ => exact columns_by_columns_apply_r1 _ _
    | ⟨0, _⟩ => exact (columns_by_columns_apply_r0 _ _).trans hk)
  rw [el, er]

end Cert.KernelMatmul

end
-- ==== Proof.KernelPayload.lean ====
/-
  What one grid point computes, read at an entry: the head function of its four blocks.

  The body reads the query, key and value blocks (1 × 1 × 4096 × 64, seen as 4096 × 64 matrices) and the projection,
  forms the queries' and the keys' positive features, the column sums of the keys' features contracted with the
  queries' features (the normaliser), the keys' features contracted with the values along the rows and then with the
  queries' features (the unnormalised output), and divides. Changes of float format are the identity on extended
  reals, and a matrix product into a zero accumulator is a plain sum, so entry (0, 0, s, e) of what it stores is
  head q k v w s e for the matrices q, k, v of the three blocks.
-/
import proofs.«110862_j35888746726059_1_alg».proof.Proof.Gen.KernelIdeal.Frame
import proofs.«110862_j35888746726059_1_alg».proof.Proof.Spec
import proofs.«110862_j35888746726059_1_alg».proof.Proof.KernelOps
import proofs.«110862_j35888746726059_1_alg».proof.Proof.KernelMatmul

noncomputable section

namespace Cert.KernelPayload

open Idealize.ShloMosaic Idealize.ShloMosaic.ValueIdx Cert.KernelIdeal Cert.KernelIdeal.Gen Cert.Attn Cert.KernelOps Cert.KernelMatmul

/-- A block as a 4096 × 64 matrix. -/
def blockMat (x : Vec Ideal S1x1x4096x64 .f32) : Fin 4096 → Fin 64 → EReal := fun s d => x (ix4 (0 : Fin 1) (0 : Fin 1) s d)

/-- The queries' features, as the body computes them from the block. -/
theorem query_features_payload (v0 : Vec Ideal S1x1x4096x64 .f32) (v6 : Vec Ideal S64x64 .f32) (s : Fin 4096) (m : Fin 64) :
    k0_pay3 (F := Ideal) v0 v6 (ix2 s m) = feat (blockMat v0) (mat v6) s m := by
  unfold k0_pay3 feat blockMat mat
  simp only [mulf_apply, repeat_column_apply, exp_apply, broadcast_apply, column_of_vector_apply,
    block_as_matrix_apply, rows_by_square_apply]
  erw [sum_columns_apply]
  simp only [mulf_apply, block_as_matrix_apply]
  rfl

/-- The keys' features: the same operations. -/
theorem key_features_payload (v2 : Vec Ideal S1x1x4096x64 .f32) (v6 : Vec Ideal S64x64 .f32) (s : Fin 4096) (m : Fin 64) :
    k0_pay4 (F := Ideal) v2 v6 (ix2 s m) = feat (blockMat v2) (mat v6) s m :=
  query_features_payload v2 v6 s m

/-- The values' block as a matrix. -/
theorem values_payload (v4 : Vec Ideal S1x1x4096x64 .f32) (s : Fin 4096) (e : Fin 64) :
    k0_pay2 (F := Ideal) v4 (ix2 s e) = blockMat v4 s e := by
  unfold k0_pay2 blockMat
  exact block_as_matrix_apply v4 _ s e

/-- The normaliser of row s. -/
theorem normaliser_payload (v0 v2 : Vec Ideal S1x1x4096x64 .f32) (v6 : Vec Ideal S64x64 .f32) (s : Fin 4096) (u : Fin 1) :
    k0_pay5 (F := Ideal) v0 v2 v6 (ix2 s u) = den (blockMat v0) (blockMat v2) (mat v6) s := by
  unfold k0_pay5 den
  simp only [rows_by_column_apply, column_of_vector64_apply, query_features_payload]
  refine Finset.sum_congr rfl fun m _ => ?_
  congr 1
  erw [sum_rows_apply]
  simp only [key_features_payload]

/-- The stored value at (0, 0, s, e), from the four intermediate matrices. -/
theorem store_payload (v5 v18 v30 : FVec Ideal S4096x64 .f32) (v33 : FVec Ideal S4096x1 .f32) (s : Fin 4096) (e : Fin 64) :
    k0_pay1 (F := Ideal) v5 v18 v30 v33 (ix4 (0 : Fin 1) (0 : Fin 1) s e)
      = Ideal.div (∑ m : Fin 64, v18 (ix2 s m) * ∑ s' : Fin 4096, v30 (ix2 s' m) * v5 (ix2 s' e)) (v33 (ix2 s (0 : Fin 1))) := by
  unfold k0_pay1
  simp only [matrix_as_block_apply, divf_apply, repeat_column_apply, rows_by_square_apply, truncf_apply,
    columns_by_columns_apply]

/-- WHAT A POINT STORES, at (0, 0, s, e): the head function of its blocks. -/
theorem block_out (x0 x1 x2 : Vec Ideal S1x1x4096x64 .f32) (x3 : Vec Ideal S64x64 .f32) (s : Fin 4096) (e : Fin 64) :
    out0_4 (F := Ideal) x0 x1 x2 x3 (ix4 (0 : Fin 1) (0 : Fin 1) s e)
      = head (blockMat x0) (blockMat x1) (blockMat x2) (mat x3) s e := by
  have hz4 : (![0, 0, 0, 0] : Fin 4 → Nat) = fun _ => 0 := funext fun a => by fin_cases a <;> rfl
  have hz2 : (![0, 0] : Fin 2 → Nat) = fun _ => 0 := funext fun a => by fin_cases a <;> rfl
  unfold out0_4
  rw [View.canon_unit_zero hz4]
  simp only [View.ld_unit_zero (S := S1x1x4096x64) hz4, View.ld_unit_zero (S := S64x64) hz2]
  rw [store_payload]
  unfold head num
  simp only [query_features_payload, key_features_payload, values_payload, normaliser_payload]

end Cert.KernelPayload

end
-- ==== Proof.KernelValue.lean ====
/-
  From blocks to the array: after the run the result array is the head function of the (b, h) slices, at every index.

  The grid has one point per pair (b, h). The query, key, value and result windows move together: at the point of
  (b, h) each block is rows (b, h, ·, ·) of its array, whole along the last two axes, and the projection's block is the
  whole projection at every point. So entry (0, 0, s, d) of an input block is entry (b, h, s, d) of its array, what the
  point stores at (0, 0, s, e) is head of the three slices at (s, e), and that is the value of the whole-array function
  at (b, h, s, e), the place the block's entry lands in the result. Every index (b, h, s, e) lies in the block of the
  point (b, h), so the blocks cover the result.
-/
import proofs.«110862_j35888746726059_1_alg».proof.Proof.Gen.KernelIdeal.Value
import proofs.«110862_j35888746726059_1_alg».proof.Proof.Spec
import proofs.«110862_j35888746726059_1_alg».proof.Proof.KernelPayload

noncomputable section

namespace Cert.KernelValue

open Idealize.ShloMosaic Idealize.ShloMosaic.TcCoe Idealize.ShloMosaic.ValueIdx Idealize.SL.Sem
open Cert.KernelIdeal Cert.KernelIdeal.Gen Cert.Attn Cert.KernelPayload
open Idealize.ShloMosaic.Pipeline (Dat)

/-- One point, over variables: if the four blocks are the (b, h) rows of Q, K, V and the whole of W, then what the
    point stores at a block index y is the whole-array function at (b, h, y₂, y₃). -/
theorem point_eq (Q K V : A4.Idx → EReal) (W : W2.Idx → EReal) (x0 x1 x2 : Vec Ideal S1x1x4096x64 .f32)
    (x3 : Vec Ideal S64x64 .f32) (b : Fin 4) (h : Fin 16)
    (h0 : ∀ (s : Fin 4096) (d : Fin 64), x0 (ix4 (0 : Fin 1) (0 : Fin 1) s d) = Q (ix4 b h s d))
    (h1 : ∀ (s : Fin 4096) (d : Fin 64), x1 (ix4 (0 : Fin 1) (0 : Fin 1) s d) = K (ix4 b h s d))
    (h2 : ∀ (s : Fin 4096) (d : Fin 64), x2 (ix4 (0 : Fin 1) (0 : Fin 1) s d) = V (ix4 b h s d))
    (h3 : ∀ (d m : Fin 64), x3 (ix2 d m) = W (ix2 d m))
    (y : S1x1x4096x64.Idx) (i : A4.Idx) (hi : ∀ (s : Fin 4096) (e : Fin 64), y = ix4 (0 : Fin 1) (0 : Fin 1) s e → i = ix4 b h s e) :
    out0_4 (F := Ideal) x0 x1 x2 x3 y = G Q K V W i := by
  obtain ⟨u0, u1, s, e, rfl⟩ : ∃ (u0 u1 : Fin 1) (s : Fin 4096) (e : Fin 64), y = ix4 u0 u1 s e :=
    ⟨y 0, y 1, y 2, y 3, eq_ix4 y⟩
  obtain rfl : u0 = 0 := Subsingleton.elim _ _
  obtain rfl : u1 = 0 := Subsingleton.elim _ _
  rw [hi s e rfl, block_out, G_ix4]
  have e0 : blockMat x0 = slice Q b h := funext fun s => funext fun d => h0 s d
  have e1 : blockMat x1 = slice K b h := funext fun s => funext fun d => h1 s d
  have e2 : blockMat x2 = slice V b h := funext fun s => funext fun d => h2 s d
  have e3 : mat x3 = mat W := funext fun d => funext fun m => h3 d m
  rw [e0, e1, e2, e3]

variable (m : (ℓ : Loc nD τ sig) → Buf (Elt Ideal) ℓ) (ρ : Dev nD → PrngReg)

/-- The index maps, decided over the 64 grid points: the three big inputs move with the result on the first two axes
    and stay at 0 on the last two; the projection stays at 0. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 3 ∧ win0_4.index t (1 : Fin 4) ≤ 15 :=
  (by decide +kernel : ∀ t : Fin grid0.N, _)

/-- Every pair (b, h) is some point's. -/
theorem idx_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-- The whole-array function of the arrays as the region finds them. -/
abbrev Gm (c : Dev nD) : S4x16x4096x64.Idx → EReal :=
  G (V m c main_arg0) (V m c main_arg1) (V m c main_arg2) (V m c main_arg3)

/-- WHAT POINT t WRITES BACK is block t of the whole-array function. -/
theorem flushed_eq (c : Dev nD) (t : Fin cfg0.N) :
    (dats m 0 c).flushed 4 t = ((cfg0.win 4).blk t).view.read (Elt Ideal) (Gm m c) := by
  rw [Cert.KernelIdeal.Value.flushed4]
  obtain ⟨a00, a01, a02, a03, a10, a11, a12, a13, a20, a21, a22, a23, a30, a31, a42, a43, l0, l1⟩ := idx_facts t
  funext j
  show out0_4 (iblk m c 0 t) (iblk m c 1 t) (iblk m c 2 t) (iblk m c 3 t) j = Gm m c (((cfg0.win 4).blk t).view.emb j)
  refine point_eq (V m c main_arg0) (V m c main_arg1) (V m c main_arg2) (V m c main_arg3)
    (iblk m c 0 t) (iblk m c 1 t) (iblk m c 2 t) (iblk m c 3 t)
    ⟨win0_4.index t (0 : Fin 4), by omega⟩ ⟨win0_4.index t (1 : Fin 4), by omega⟩ ?_ ?_ ?_ ?_ j
    (((cfg0.win 4).blk t).view.emb j) ?_
  · intro s d
    show V m c main_arg0 (((cfg0.win 0).blk t).view.emb (ix4 (0 : Fin 1) (0 : Fin 1) s d)) = _
    refine congrArg (V m c main_arg0) (funext fun a => Fin.ext ?_)
    match a with
    | ⟨0, _⟩ => show win0_0.index t (0 : Fin 4) * 1 + 1 * 0 = win0_4.index t (0 : Fin 4); omega
    | ⟨1, _⟩ => show win0_0.index t (1 : Fin 4) * 1 + 1 * 0 = win0_4.index t (1 : Fin 4); omega
    | ⟨2, _⟩ => show win0_0.index t (2 : Fin 4) * 4096 + 1 * s.val = s.val; omega
    | ⟨3, _⟩ => show win0_0.index t (3 : Fin 4) * 64 + 1 * d.val = d.val; omega
  · intro s d
    show V m c main_arg1 (((cfg0.win 1).blk t).view.emb (ix4 (0 : Fin 1) (0 : Fin 1) s d)) = _
    refine congrArg (V m c main_arg1) (funext fun a => Fin.ext ?_)
    match a with
    | ⟨0, _⟩ => show win0_1.index t (0 : Fin 4) * 1 + 1 * 0 = win0_4.index t (0 : Fin 4); omega
    | ⟨1, _⟩ => show win0_1.index t (1 : Fin 4) * 1 + 1 * 0 = win0_4.index t (1 : Fin 4); omega
    | ⟨2, _⟩ => show win0_1.index t (2 : Fin 4) * 4096 + 1 * s.val = s.val; omega
    | ⟨3, _⟩ => show win0_1.index t (3 : Fin 4) * 64 + 1 * d.val = d.val; omega
  · intro s d
    show V m c main_arg2 (((cfg0.win 2).blk t).view.emb (ix4 (0 : Fin 1) (0 : Fin 1) s d)) = _
    refine congrArg (V m c main_arg2) (funext fun a => Fin.ext ?_)
    match a with
    | ⟨0, _⟩ => show win0_2.index t (0 : Fin 4) * 1 + 1 * 0 = win0_4.index t (0 : Fin 4); omega
    | ⟨1, _⟩ => show win0_2.index t (1 : Fin 4) * 1 + 1 * 0 = win0_4.index t (1 : Fin 4); omega
    | ⟨2, _⟩ => show win0_2.index t (2 : Fin 4) * 4096 + 1 * s.val = s.val; omega
    | ⟨3, _⟩ => show win0_2.index t (3 : Fin 4) * 64 + 1 * d.val = d.val; omega
  · intro d k
    show V m c main_arg3 (((cfg0.win 3).blk t).view.emb (ix2 d k)) = _
    refine congrArg (V m c main_arg3) (funext fun a => Fin.ext ?_)
    match a with
    | ⟨0, _⟩ => show win0_3.index t (0 : Fin 2) * 64 + 1 * d.val = d.val; omega
    | ⟨1, _⟩ => show win0_3.index t (1 : Fin 2) * 64 + 1 * k.val = k.val; omega
  · intro s e hj
    subst hj
    refine funext fun a => Fin.ext ?_
    match a with
    | ⟨0, _⟩ => show win0_4.index t (0 : Fin 4) * 1 + 1 * 0 = win0_4.index t (0 : Fin 4); omega
    | ⟨1, _⟩ => show win0_4.index t (1 : Fin 4) * 1 + 1 * 0 = win0_4.index t (1 : Fin 4); omega
    | ⟨2, _⟩ => show win0_4.index t (2 : Fin 4) * 4096 + 1 * s.val = s.val; omega
    | ⟨3, _⟩ => show win0_4.index t (3 : Fin 4) * 64 + 1 * e.val = e.val; omega

/-- An index of the result is in point t's block iff each coordinate is in the block's range on its axis. -/
theorem mem_blk (t : Fin cfg0.N) (i : S4x16x4096x64.Idx) :
    i ∈ ((cfg0.win 4).blk t).view.set ↔ ∀ a : Fin 4, win0_4.index t a * S1x1x4096x64.size a ≤ (i a).val
      ∧ (i a).val < win0_4.index t a * S1x1x4096x64.size a + S1x1x4096x64.size a := by
  show i ∈ ((View.whole main_v0).slice (win0_4.rect t)).set ↔ _
  rw [View.set_slice_whole, Rect.mem_set_unit]
  exact Iff.rfl

/-- The blocks cover the result: (b, h, s, e) is in the block of the point (b, h). -/
theorem cover (i : S4x16x4096x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := idx_onto ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 4096 ≤ (i 2).val ∧ (i 2).val < win0_4.index t (2 : Fin 4) * 4096 + 4096; omega
  | ⟨3, _⟩ => show win0_4.index t (3 : Fin 4) * 64 ≤ (i 3).val ∧ (i 3).val < win0_4.index t (3 : Fin 4) * 64 + 64; omega

/-- THE RESULT ARRAY after the run is the whole-array function of the arrays as the region finds them. -/
theorem final (c : Dev nD) : (dats m 0 c).arrAt 4 cfg0.N = Gm m c :=
  (dats m 0 c).arrAt_eq_of_cover 4 (Gm m c) (fun t _ => flushed_eq m c t) (cover)

/-- THE RUN: every weakly fair execution terminates with the result at the whole-array function of the argument
    arrays as launched, and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelValue

end
-- ==== Proof.RefFeatures.lean ====
/-
  The reference's feature maps, read at an index.

  The reference computes, for the whole 4 × 16 × 4096 × 64 array X at once, the array whose entry (b, h, s, m) is
  (1/8 · exp(−1/2 · (0 + Σ_d X_{b,h,s,d}²))) · exp(Σ_d X_{b,h,s,d} · W_{d,m}): the sum of squares along the last
  axis from the initial value 0, the scalars spread over the array, and the contraction of the last axis of X with the
  first axis of W. Read at (b, h, s, m) this is the feature m of row s of the (b, h) slice of X. The queries' and
  the keys' feature arrays are the same function of their argument.
-/
import proofs.«110862_j35888746726059_1_alg».proof.Proof.Gen.ReferenceIdeal.Read
import proofs.«110862_j35888746726059_1_alg».proof.Proof.Spec

noncomputable section

namespace Cert.RefFeatures

open Idealize.ShloMosaic Idealize.ShloMosaic.ValueIdx Cert.ReferenceIdeal Cert.ReferenceIdeal.Read Cert.Attn

/-- The queries' feature array at (b, h, s, m). -/
theorem query_features_apply (X : FVec Ideal S4x16x4096x64 .f32) (W : FVec Ideal S64x64 .f32) (b : Fin 4) (h : Fin 16)
    (s : Fin 4096) (m : Fin 64) :
    val_main_v11 (F := Ideal) X W (ix4 b h s m) = feat (slice X b h) (mat W) s m := by
  have e10 : idx_main_v10 (ix4 b h s m) = ix4 b h s (0 : Fin 1) := funext fun a => Fin.ext (by
    match a with | ⟨0, _⟩ => rfl | ⟨1, _⟩ => rfl | ⟨2, _⟩ => rfl | ⟨3, _⟩ => rfl)
  have e7 : idx_main_v7 (ix4 b h s (0 : Fin 1)) = ix3 b h s := funext fun a => Fin.ext (by
    match a with | ⟨0, _⟩ => rfl | ⟨1, _⟩ => rfl | ⟨2, _⟩ => rfl)
  have e1 : ∀ d : Fin 64, idx_main_v1 (ix3 b h s) d = ix4 b h s d := fun d => funext fun a => Fin.ext (by
    match a with | ⟨0, _⟩ => rfl | ⟨1, _⟩ => rfl | ⟨2, _⟩ => rfl | ⟨3, _⟩ => rfl)
  have el : ∀ d : Fin 64, lidx_main_v5 (ix4 b h s m) d = ix4 b h s d := fun d => funext fun a => Fin.ext (by
    match a with | ⟨0, _⟩ => rfl | ⟨1, _⟩ => rfl | ⟨2, _⟩ => rfl | ⟨3, _⟩ => rfl)
  have er : ∀ d : Fin 64, ridx_main_v5 (ix4 b h s m) d = ix2 d m := fun d => funext fun a => Fin.ext (by
    match a with | ⟨0, _⟩ => rfl | ⟨1, _⟩ => rfl)
  rw [val_main_v11_apply, val_main_v10_apply, e10, val_main_v9_apply, val_main_v8_apply, val_main_cst_1_apply,
    val_main_v7_apply, e7, val_main_v4_apply, val_main_v3_apply, val_main_v2_apply, val_main_cst_0_apply,
    val_main_v1_apply, val_main_cst_apply, val_main_v6_apply, val_main_v5_apply]
  simp only [val_main_v0_apply, e1, el, er]
  unfold feat slice mat
  simp only [Ideal.mulf_def, Ideal.hostUnary_exp_def, Ideal.ofBits_def, Ideal.ofBits_zero_f32, zero_add]

/-- The keys' feature array is the same function of its argument. -/
theorem key_features_apply (X : FVec Ideal S4x16x4096x64 .f32) (W : FVec Ideal S64x64 .f32) (b : Fin 4) (h : Fin 16)
    (s : Fin 4096) (m : Fin 64) :
    val_main_v23 (F := Ideal) X W (ix4 b h s m) = feat (slice X b h) (mat W) s m :=
  query_features_apply X W b h s m

end Cert.RefFeatures

end
-- ==== Proof.RefValue.lean ====
/-
  The reference, read at an index, is the head function of the slices.

  The reference joins a column of ones to the values (65 columns), contracts the keys' features with it along the
  4096 rows (a 64 × 65 matrix per head), and contracts the queries' features with that along the 64 features. Column
  e < 64 of the result is the unnormalised output num s e; column 64 is Σ_m feat q s m · (Σ_{s'} feat k s' m · 1),
  which is the normaliser den s because a product with 1 changes nothing. The reference then multiplies column e by the
  reciprocal 1 / (column 64). When the queries, the keys and the projection have real entries the normaliser is a
  nonzero real, and the product with its reciprocal is the quotient by it.
-/
import proofs.«110862_j35888746726059_1_alg».proof.Proof.Gen.ReferenceIdeal.Read
import proofs.«110862_j35888746726059_1_alg».proof.Proof.Spec
import proofs.«110862_j35888746726059_1_alg».proof.Proof.RefFeatures

noncomputable section

namespace Cert.RefValue

open Idealize.ShloMosaic Idealize.ShloMosaic.ValueIdx Cert.ReferenceIdeal Cert.ReferenceIdeal.Gen Cert.ReferenceIdeal.Read Cert.Attn
open Cert.LibRealArith Cert.RefFeatures

/-- The binary32 pattern of 1. -/
theorem ofBits_one : Ideal.ofBits .f32 0x3F800000#32 = (1 : EReal) := by
  simp [Ideal.ofBits, Ideal.ieee, -EReal.coe_mul] <;> norm_num

/-- A column e < 64 of the values joined with a column of ones is the values' column e. -/
theorem joined_left (V : FVec Ideal S4x16x4096x64 .f32) (b : Fin 4) (h : Fin 16) (s : Fin 4096) (e : Fin 64) :
    val_main_v25 (F := Ideal) V (ix4 b h s (⟨e.val, by omega⟩ : Fin 65)) = V (ix4 b h s e) := by
  unfold val_main_v25
  exact concatenate_pair_apply_left 3 V _ concatenates_S4x16x4096x64_S4x16x4096x1_S4x16x4096x65_d3 _ rfl (ix4 b h s e)
    (fun a => by match a with | ⟨0, _⟩ => rfl | ⟨1, _⟩ => rfl | ⟨2, _⟩ => rfl | ⟨3, _⟩ => rfl)

/-- Column 64 of the values joined with a column of ones is 1. -/
theorem joined_right (V : FVec Ideal S4x16x4096x64 .f32) (b : Fin 4) (h : Fin 16) (s : Fin 4096) :
    val_main_v25 (F := Ideal) V (ix4 b h s (⟨64, by decide⟩ : Fin 65)) = 1 := by
  unfold val_main_v25
  refine (concatenate_pair_apply_right 3 V _ concatenates_S4x16x4096x64_S4x16x4096x1_S4x16x4096x65_d3 _ rfl rfl
    (ix4 b h s (0 : Fin 1))
    (fun a ha => by
      match a with
      | ⟨0, _⟩ => rfl
      | ⟨1, _⟩ => rfl
      | ⟨2, _⟩ => rfl
      | ⟨3, _⟩ => exact absurd rfl ha)
    rfl).trans ?_
  rw [val_main_v24_apply, val_main_cst_5_apply]
  exact ofBits_one

/-- The keys' features contracted with the joined values along the rows. -/
theorem keys_by_joined_apply (K V : FVec Ideal S4x16x4096x64 .f32) (W : FVec Ideal S64x64 .f32) (b : Fin 4) (h : Fin 16)
    (m : Fin 64) (e : Fin 65) :
    val_main_v26 (F := Ideal) K V W (ix4 b h m e)
      = ∑ s' : Fin 4096, feat (slice K b h) (mat W) s' m * val_main_v25 (F := Ideal) V (ix4 b h s' e) := by
  rw [val_main_v26_apply]
  refine Finset.sum_congr rfl fun s' _ => ?_
  have el : lidx_main_v26 (ix4 b h m e) s' = ix4 b h s' m := funext fun a => Fin.ext (by
    match a with | ⟨0, _⟩ => rfl | ⟨1, _⟩ => rfl | ⟨2, _⟩ => rfl | ⟨3, _⟩ => rfl)
  have er : ridx_main_v26 (ix4 b h m e) s' = ix4 b h s' e := funext fun a => Fin.ext (by
    match a with | ⟨0, _⟩ => rfl | ⟨1, _⟩ => rfl | ⟨2, _⟩ => rfl | ⟨3, _⟩ => rfl)
  rw [el, er, key_features_apply]

/-- The queries' features contracted with that along the features. -/
theorem queries_by_buffer_apply (Q K V : FVec Ideal S4x16x4096x64 .f32) (W : FVec Ideal S64x64 .f32) (b : Fin 4) (h : Fin 16)
    (s : Fin 4096) (e : Fin 65) :
    val_main_v27 (F := Ideal) Q K V W (ix4 b h s e)
      = ∑ m : Fin 64, feat (slice Q b h) (mat W) s m
          * ∑ s' : Fin 4096, feat (slice K b h) (mat W) s' m * val_main_v25 (F := Ideal) V (ix4 b h s' e) := by
  rw [val_main_v27_apply]
  refine Finset.sum_congr rfl fun m _ => ?_
  have el : lidx_main_v27 (ix4 b h s e) m = ix4 b h s m := funext fun a => Fin.ext (by
    match a with | ⟨0, _⟩ => rfl | ⟨1, _⟩ => rfl | ⟨2, _⟩ => rfl | ⟨3, _⟩ => rfl)
  have er : ridx_main_v27 (ix4 b h s e) m = ix4 b h m e := funext fun a => Fin.ext (by
    match a with | ⟨0, _⟩ => rfl | ⟨1, _⟩ => rfl | ⟨2, _⟩ => rfl | ⟨3, _⟩ => rfl)
  rw [el, er, query_features_apply, keys_by_joined_apply]

/-- Column e < 64 of the result of the two contractions is the unnormalised output. -/
theorem numerator_apply (Q K V : FVec Ideal S4x16x4096x64 .f32) (W : FVec Ideal S64x64 .f32) (b : Fin 4) (h : Fin 16)
    (s : Fin 4096) (e : Fin 64) :
    val_main_v27 (F := Ideal) Q K V W (ix4 b h s (⟨e.val, by omega⟩ : Fin 65))
      = num (slice Q b h) (slice K b h) (slice V b h) (mat W) s e := by
  rw [queries_by_buffer_apply]
  unfold num
  refine Finset.sum_congr rfl fun m _ => congrArg (_ * ·) (Finset.sum_congr rfl fun s' _ => ?_)
  rw [joined_left]
  rfl

/-- Column 64 of the result of the two contractions is the normaliser. -/
theorem normaliser_apply (Q K V : FVec Ideal S4x16x4096x64 .f32) (W : FVec Ideal S64x64 .f32) (b : Fin 4) (h : Fin 16)
    (s : Fin 4096) :
    val_main_v27 (F := Ideal) Q K V W (ix4 b h s (⟨64, by decide⟩ : Fin 65))
      = den (slice Q b h) (slice K b h) (mat W) s := by
  rw [queries_by_buffer_apply]
  unfold den
  refine Finset.sum_congr rfl fun m _ => congrArg (_ * ·) (Finset.sum_congr rfl fun s' _ => ?_)
  rw [joined_right, mul_one]

/-- THE REFERENCE IS THE HEAD FUNCTION, for real queries, keys and projection. -/
theorem reference_eq (Q K V : FVec Ideal S4x16x4096x64 .f32) (W : FVec Ideal S64x64 .f32)
    (hQ : AllReal Q) (hK : AllReal K) (hW : AllReal W) :
    val_main_v35 (F := Ideal) Q K V W = G Q K V W := by
  funext i
  obtain ⟨b, h, s, e, rfl⟩ : ∃ (b : Fin 4) (h : Fin 16) (s : Fin 4096) (e : Fin 64), i = ix4 b h s e :=
    ⟨i 0, i 1, i 2, i 3, eq_ix4 i⟩
  have e28 : idx_main_v28 (ix4 b h s e) = ix4 b h s (⟨e.val, by omega⟩ : Fin 65) := funext fun a => Fin.ext (by
    match a with | ⟨0, _⟩ => rfl | ⟨1, _⟩ => rfl | ⟨2, _⟩ => rfl | ⟨3, _⟩ => rfl)
  have e34 : idx_main_v34 (ix4 b h s e) = ix4 b h s (0 : Fin 1) := funext fun a => Fin.ext (by
    match a with | ⟨0, _⟩ => rfl | ⟨1, _⟩ => rfl | ⟨2, _⟩ => rfl | ⟨3, _⟩ => rfl)
  have e33 : idx_main_v33 (ix4 b h s (0 : Fin 1)) = ix3 b h s := funext fun a => Fin.ext (by
    match a with | ⟨0, _⟩ => rfl | ⟨1, _⟩ => rfl | ⟨2, _⟩ => rfl)
  have hb := b.isLt
  have hh := h.isLt
  have hs := s.isLt
  have e30 : idx_main_v30 (ix3 b h s) = ix4 b h s (0 : Fin 1) := funext fun a => Fin.ext (by
    match a with
    | ⟨0, _⟩ => show ((b.val * 16 + h.val) * 4096 + s.val) / 65536 = b.val; omega
    | ⟨1, _⟩ => show ((b.val * 16 + h.val) * 4096 + s.val) / 4096 % 16 = h.val; omega
    | ⟨2, _⟩ => show ((b.val * 16 + h.val) * 4096 + s.val) / 1 % 4096 = s.val; omega
    | ⟨3, _⟩ => rfl)
  have e29 : idx_main_v29 (ix4 b h s (0 : Fin 1)) = ix4 b h s (⟨64, by decide⟩ : Fin 65) := funext fun a => Fin.ext (by
    match a with | ⟨0, _⟩ => rfl | ⟨1, _⟩ => rfl | ⟨2, _⟩ => rfl | ⟨3, _⟩ => rfl)
  rw [val_main_v35_apply, val_main_v28_apply, e28, numerator_apply, val_main_v34_apply, e34, val_main_v33_apply, e33,
    val_main_v32_apply, val_main_v31_apply, val_main_cst_6_apply, val_main_v30_apply, e30, val_main_v29_apply, e29,
    normaliser_apply, G_ix4]
  rw [Ideal.mulf_def, Ideal.hostDivf_def, Ideal.ofBits_def, ofBits_one]
  exact num_mul_recip (fun s d => hQ _) (fun s d => hK _) (fun d m => hW _) s e

end Cert.RefValue

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«110862_j35888746726059_1_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  The finiteness precondition, read back: every entry of the four inputs is a real number.

  An extended real whose absolute value max x (-x) is strictly below +∞ is a real number. The precondition is the
  conjunction of this test over all entries of query, key, value and omega: for each input the one-bit answers of
  "absolute value < +∞" are joined by "and" over every index, and the four results are joined by "and" again. So
  when the precondition answers 1, each of the four conjunctions is 1, each entry passes its test, and each entry
  is a real number.
-/
import proofs.«110862_j35888746726059_1_alg».proof.Pre_finite_inputs
import proofs.«110862_j35888746726059_1_alg».proof.Proof.LibFiniteEntry
import Idealize.ShloMosaic.Lib.ReduceAll
import Idealize.ShloMosaic.Lib.ValueIdx

noncomputable section

namespace Cert.Finite

open Idealize.ShloMosaic Cert.LibRealArith Cert.LibFiniteEntry

variable [Cert.Pre_finite_inputs.Facts]

/-- The rank-0 shape has exactly one index. -/
instance subsingleton_scalar_idx : Subsingleton Cert.Pre_finite_inputs.S_.Idx :=
  ⟨fun a b => funext fun d => d.elim0⟩

/-- One conjunction over all entries: if "and" over every index of the tests "absolute value of x i < c i", with every
    c i the pattern of +∞, answers 1, then every entry of x is a real number. -/
theorem allReal_of_all_lt_inf {s : Shape} {axes : List (Fin s.rank)} (x c : FVec Ideal s .f32)
    (hc : ∀ i, c i = Ideal.ofBits .f32 0x7F800000#32) (init : IVec Cert.Pre_finite_inputs.S_ 1)
    (hr : s.ReducesTo axes Cert.Pre_finite_inputs.S_) (hu : 0 < Cert.Pre_finite_inputs.S_.numel)
    (e : Host.reduce IntOp.andi (cmpf .olt (Host.absf x) c) init hr hu ValueIdx.ix0 = 1#1) : AllReal x := by
  intro i
  have hi := Host.reduce_andi_all (cmpf .olt (Host.absf x) c) init hr hu ValueIdx.ix0 e i
  rw [ValueIdx.cmpf_apply, hc i] at hi
  exact isReal_of_cmp (x i) hi

/-- The precondition answers 1 only if every entry of query, key, value and omega is a real number. -/
theorem allReal_of_pre (q k v : FVec Ideal Cert.Pre_finite_inputs.S4x16x4096x64 .f32)
    (w : FVec Ideal Cert.Pre_finite_inputs.S64x64 .f32)
    (h : Cert.Pre_finite_inputs.fn (F := Ideal) q k v w = fun _ => 1#1) :
    AllReal q ∧ AllReal k ∧ AllReal v ∧ AllReal w := by
  have e := congrFun h ValueIdx.ix0
  dsimp only [Cert.Pre_finite_inputs.fn, Cert.Pre_finite_inputs.fn_part1] at e
  obtain ⟨e3, hw⟩ := IntOp.andi_eq_one.1 e
  obtain ⟨e2, hv⟩ := IntOp.andi_eq_one.1 e3
  obtain ⟨hq, hk⟩ := IntOp.andi_eq_one.1 e2
  exact ⟨allReal_of_all_lt_inf q _ (fun _ => rfl) _ _ _ hq, allReal_of_all_lt_inf k _ (fun _ => rfl) _ _ _ hk,
    allReal_of_all_lt_inf v _ (fun _ => rfl) _ _ _ hv, allReal_of_all_lt_inf w _ (fun _ => rfl) _ _ _ hw⟩

end Cert.Finite

end
-- ==== Proof.lean ====
/-
  Linear attention with positive random features: the kernel and the reference compute the same array.

  Both programs take queries, keys and values of shape 4 × 16 × 4096 × 64 and a 64 × 64 projection. For each head
  (b, h) a row x of the queries or keys is sent to the 64 positive features
  (1/8 · exp(−1/2 · Σ_d x_d²)) · exp(Σ_d x_d · w_{d,m}), and the output at row s, column e is
      (Σ_m feat q s m · Σ_{s'} feat k s' m · v_{s',e}) / (Σ_m feat q s m · Σ_{s'} feat k s' m).
  The kernel runs one grid point per head: it forms the two feature matrices, the normaliser from the column sums of
  the keys' features, the unnormalised output by two matrix products, and divides. On the extended reals a change of
  float format is the identity and a product into a zero accumulator is a plain sum, so each point stores exactly this
  quotient, and the 64 blocks tile the result. The reference joins a column of ones to the values, so that one pair of
  contractions yields the unnormalised output in columns 0–63 and the normaliser in column 64, and multiplies by the
  reciprocal of the normaliser. A product with 1 changes nothing, and for finite inputs every feature is a positive
  real, so the normaliser is a nonzero real and the product with its reciprocal is the quotient: the two results agree
  entry by entry. The precondition (every input entry finite) is used exactly there. The ideal pass rewrote nothing,
  so the kernel's idealization is its own text and the preservation claim is trivial.
-/
import proofs.«110862_j35888746726059_1_alg».proof.Defs
import proofs.«110862_j35888746726059_1_alg».proof.Proof.Gen.Kernel
import proofs.«110862_j35888746726059_1_alg».proof.Proof.Gen.Kernel.Skeleton
import proofs.«110862_j35888746726059_1_alg».proof.Proof.Gen.Kernel.Launch
import proofs.«110862_j35888746726059_1_alg».proof.Proof.Gen.Kernel.Points
import proofs.«110862_j35888746726059_1_alg».proof.Proof.Gen.Kernel.Frame
import proofs.«110862_j35888746726059_1_alg».proof.Proof.Gen.KernelIdeal
import proofs.«110862_j35888746726059_1_alg».proof.Proof.Gen.KernelIdeal.Skeleton
import proofs.«110862_j35888746726059_1_alg».proof.Proof.Gen.KernelIdeal.Launch
import proofs.«110862_j35888746726059_1_alg».proof.Proof.Gen.KernelIdeal.Points
import proofs.«110862_j35888746726059_1_alg».proof.Proof.Gen.KernelIdeal.Frame
import proofs.«110862_j35888746726059_1_alg».proof.Proof.Gen.KernelIdeal.Value
import proofs.«110862_j35888746726059_1_alg».proof.Proof.Gen.ReferenceIdeal
import proofs.«110862_j35888746726059_1_alg».proof.Proof.Gen.ReferenceIdeal.Run
import proofs.«110862_j35888746726059_1_alg».proof.Proof.Gen.ReferenceIdeal.Read
import proofs.«110862_j35888746726059_1_alg».proof.Proof.Gen.Pre_finite_inputs
import proofs.«110862_j35888746726059_1_alg».proof.Proof.KernelValue
import proofs.«110862_j35888746726059_1_alg».proof.Proof.RefValue
import proofs.«110862_j35888746726059_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the arguments, both programs end with the head function of the slices at every index:
    the kernel by its blocks, the reference by its two contractions, the normaliser being a nonzero real for finite
    queries, keys and projection. -/
theorem algebraic : Cert.algebraic_KernelIdeal_ReferenceIdeal := by
  intro m ρ m' ρ' hpre hagree
  refine ⟨fun c => Cert.Attn.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2]
  obtain ⟨hq, hk, _, hw⟩ := Cert.Finite.allReal_of_pre _ _ _ _ (hpre c)
  exact Cert.RefValue.reference_eq _ _ _ _ hq hk hw

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
